-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x256 : Shape := ⟨2, ![65536, 256]⟩
abbrev S65536 : Shape := ⟨1, ![65536]⟩
abbrev S256x768 : Shape := ⟨2, ![256, 768]⟩
abbrev S256 : Shape := ⟨1, ![256]⟩
abbrev S256x512 : Shape := ⟨2, ![256, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S65536 : S_.BroadcastsInDim S65536 (![] : Fin 0 → Fin S65536.rank)
  reducesTo_S65536_S_d0 : S65536.ReducesTo [0] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x512 .f32) (main_arg8 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x768 .f32) (main_arg6 : FVec F S256 .f32) (main_arg7 : FVec F S256x512 .f32) (main_arg8 : FVec F S256 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S65536x256 .f32) (main_arg2 : FVec F S65536 .f32) (main_arg3 : FVec F S256x768 .f32) (main_arg4 : FVec F S256 .f32) (main_arg5 : FVec F S256x768 .f32) (main_arg6 : FVec F S256 .f32) (main_arg7 : FVec F S256x512 .f32) (main_arg8 : FVec F S256 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S65536x256 : Shape := ⟨2, ![65536, 256]⟩
abbrev S65536 : Shape := ⟨1, ![65536]⟩
abbrev S256x768 : Shape := ⟨2, ![256, 768]⟩
abbrev S256 : Shape := ⟨1, ![256]⟩
abbrev S256x512 : Shape := ⟨2, ![256, 512]⟩
abbrev S768x256 : Shape := ⟨2, ![768, 256]⟩
abbrev S512x256 : Shape := ⟨2, ![512, 256]⟩
abbrev S768x512 : Shape := ⟨2, ![768, 512]⟩
abbrev S512x512 : Shape := ⟨2, ![512, 512]⟩
abbrev S256x256 : Shape := ⟨2, ![256, 256]⟩
abbrev S512 : Shape := ⟨1, ![512]⟩
abbrev S1x512 : Shape := ⟨2, ![1, 512]⟩
abbrev S1x256 : Shape := ⟨2, ![1, 256]⟩
abbrev S65536x1 : Shape := ⟨2, ![65536, 1]⟩
abbrev S2048x512 : Shape := ⟨2, ![2048, 512]⟩
abbrev S2048x256 : Shape := ⟨2, ![2048, 256]⟩
abbrev S2048x1 : Shape := ⟨2, ![2048, 1]⟩

abbrev nBuf : Space → Nat
  | .hbm => 26
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S65536x256, .f32⟩
  | .hbm, ⟨2, _⟩ => ⟨S65536, .f32⟩
  | .hbm, ⟨3, _⟩ => ⟨S256x768, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S768x256, .f32⟩
  | .hbm, ⟨10, _⟩ => ⟨S768x256, .f32⟩
  | .hbm, ⟨11, _⟩ => ⟨S512x256, .f32⟩
  | .hbm, ⟨12, _⟩ => ⟨S768x512, .f32⟩
  | .hbm, ⟨13, _⟩ => ⟨S512x512, .f32⟩
  | .hbm, ⟨14, _⟩ => ⟨S512x512, .bf16⟩
  | .hbm, ⟨15, _⟩ => ⟨S256x512, .f32⟩
  | .hbm, ⟨16, _⟩ => ⟨S256x512, .bf16⟩
  | .hbm, ⟨17, _⟩ => ⟨S256x256, .f32⟩
  | .hbm, ⟨18, _⟩ => ⟨S256x256, .bf16⟩
  | .hbm, ⟨19, _⟩ => ⟨S256x256, .f32⟩
  | .hbm, ⟨20, _⟩ => ⟨S256x256, .bf16⟩
  | .hbm, ⟨21, _⟩ => ⟨S512, .f32⟩
  | .hbm, ⟨22, _⟩ => ⟨S1x512, .f32⟩
  | .hbm, ⟨23, _⟩ => ⟨S1x256, .f32⟩
  | .hbm, ⟨24, _⟩ => ⟨S65536x1, .f32⟩
  | .hbm, ⟨25, _⟩ => ⟨S65536x256, .f32⟩
  | .local _ .vmem, ⟨0, _⟩ => ⟨S2048x512, .f32⟩
  | .local _ .vmem, ⟨1, _⟩ => ⟨S2048x512, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S512x512, .bf16⟩
  | .local _ .vmem, ⟨7, _⟩ => ⟨S256x512, .bf16⟩
  | .local _ .vmem, ⟨8, _⟩ => ⟨S1x512, .f32⟩
  | .local _ .vmem, ⟨9, _⟩ => ⟨S256x256, .bf16⟩
  | .local _ .vmem, ⟨10, _⟩ => ⟨S256x256, .bf16⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x768_S768x256_1_0 : S256x768.Transposes [1, 0] S768x256
  transposes_S256x512_S512x256_1_0 : S256x512.Transposes [1, 0] S512x256
  concatenates_S768x256_S768x256_S768x512_d1 : Shape.Concatenates [S768x256, S768x256] S768x512 1
  slices_S768x512_S512x512_0_0 : S768x512.Slices ![0, 0] S512x512
  bitsLt_bf16_f32 : FTy.bits .bf16 < FTy.bits .f32
  slices_S768x512_S256x512_512_0 : S768x512.Slices ![512, 0] S256x512
  slices_S512x256_S256x256_0_0 : S512x256.Slices ![0, 0] S256x256
  slices_S512x256_S256x256_256_0 : S512x256.Slices ![256, 0] S256x256
  concatenates_S256_S256_S512_d0 : Shape.Concatenates [S256, S256] S512 0
  shapeCasts_S512_S1x512 : S512.ShapeCasts S1x512
  shapeCasts_S256_S1x256 : S256.ShapeCasts S1x256
  shapeCasts_S65536_S65536x1 : S65536.ShapeCasts S65536x1
  inb_S2048x512_S2048x512_0_0 : ∀ a, (![0, 0] : Fin 2 → Nat) a + S2048x512.size a ≤ S2048x512.size a
  h_S2048x512 : 0 < S2048x512.numel
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  broadcasts_S2048x1_S2048x256 : S2048x1.Broadcasts S2048x256
  dot_S2048x512_S512x512_S2048x512_1_0_0_1_n_n_wf : DotDims.WF S2048x512 S512x512 S2048x512 [1] [0] [0] [1] [] []
  dot_S2048x256_S256x512_S2048x512_1_0_0_1_n_n_wf : DotDims.WF S2048x256 S256x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S65536x256.size a
  hwx0_9 : ∀ i : grid0.Coords, EltTy.bits .f32 = 32 ∨ (Rect.block (s := S65536x256) S2048x256.size (cc0_transform_9 i) (hinb0_9 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x256 : Shape := ⟨2, ![65536, 256]⟩
abbrev S65536 : Shape := ⟨1, ![65536]⟩
abbrev S256x768 : Shape := ⟨2, ![256, 768]⟩
abbrev S256 : Shape := ⟨1, ![256]⟩
abbrev S256x512 : Shape := ⟨2, ![256, 512]⟩
abbrev S65536x768 : Shape := ⟨2, ![65536, 768]⟩
abbrev S768x256 : Shape := ⟨2, ![768, 256]⟩
abbrev S1x256 : Shape := ⟨2, ![1, 256]⟩
abbrev S_ : Shape := ⟨0, ![]⟩
abbrev S512x256 : Shape := ⟨2, ![512, 256]⟩
abbrev S65536x1 : Shape := ⟨2, ![65536, 1]⟩

abbrev nBuf : Space → Nat
  | .hbm => 54
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x256, .f32⟩
  | .hbm, ⟨2, _⟩ => ⟨S65536, .f32⟩
  | .hbm, ⟨3, _⟩ => ⟨S256x768, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S65536x256, .f32⟩
  | .hbm, ⟨10, _⟩ => ⟨S65536x768, .f32⟩
  | .hbm, ⟨11, _⟩ => ⟨S768x256, .f32⟩
  | .hbm, ⟨12, _⟩ => ⟨S65536x256, .f32⟩
  | .hbm, ⟨13, _⟩ => ⟨S1x256, .f32⟩
  | .hbm, ⟨14, _⟩ => ⟨S65536x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S65536x256, .f32⟩
  | .hbm, ⟨23, _⟩ => ⟨S65536x256, .f32⟩
  | .hbm, ⟨24, _⟩ => ⟨S768x256, .f32⟩
  | .hbm, ⟨25, _⟩ => ⟨S65536x256, .f32⟩
  | .hbm, ⟨26, _⟩ => ⟨S1x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S_, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x512, .f32⟩
  | .hbm, ⟨39, _⟩ => ⟨S512x256, .f32⟩
  | .hbm, ⟨40, _⟩ => ⟨S65536x256, .f32⟩
  | .hbm, ⟨41, _⟩ => ⟨S1x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x1, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S65536x512_S65536x256_0_0 : S65536x512.Slices ![0, 0] S65536x256
  concatenates_S65536x512_S65536x256_S65536x768_d1 : Shape.Concatenates [S65536x512, S65536x256] S65536x768 1
  transposes_S256x768_S768x256_1_0 : S256x768.Transposes [1, 0] S768x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  concatenates_S65536x256_S65536x256_S65536x512_d1 : Shape.Concatenates [S65536x256, S65536x256] S65536x512 1
  transposes_S256x512_S512x256_1_0 : S256x512.Transposes [1, 0] S512x256
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  dot_S65536x768_S768x256_S65536x256_1_0_0_1_n_n_wf : DotDims.WF S65536x768 S768x256 S65536x256 [1] [0] [0] [1] [] []
  dot_S65536x512_S512x256_S65536x256_1_0_0_1_n_n_wf : DotDims.WF S65536x512 S512x256 S65536x256 [1] [0] [0] [1] [] []

variable [Facts₀]

def dot_S65536x768_S768x256_S65536x256_1_0_0_1_n_n : DotDims S65536x768 S768x256 S65536x256 where
  lhsContracting := [1]
  rhsContracting := [0]
  lhsNonContracting := [0]
  rhsNonContracting := [1]
  lhsBatch := []
  rhsBatch := []
  wf := dot_S65536x768_S768x256_S65536x256_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf

class Facts : Prop extends Facts₀ where

variable [Facts]
-- ==== Proof.LibJoinedRows.lean ====
/-
  Rows made of two parts, and a few operations read row by row, on the extended reals.

  `joined hC f g` is the row `f` (width `A`) followed by the row `g` (width `B`), indexed by the total width `C = A + B`.
  A sum over a joined row against a row of weights splits into the sum over the first part plus the sum over the
  second part (`sum_append_mul`): this is what makes a product computed as two partial products ("split K") equal to
  the product of the concatenated operand. It uses only commutativity and associativity of addition, so it holds on the
  extended reals without any finiteness assumption. Also here: an entry of a joined row in either part
  (`joined_left`, `joined_right`); two flat arrays concatenated, read at an index (`concat_flat`); a flat array made a
  one-column matrix (`col_apply`); and the logistic, the hyperbolic tangent and the product of tiles read entry by
  entry from a description of their operands by rows (`logistic_rows`, `tanh_rows`, `mul_rows`), for any extents.
-/
import Idealize.ShloMosaic.PureOps.Ideal
import Idealize.ShloMosaic.Lib.ValueIdx
import Idealize.ShloMosaic.Lib.Pipeline.Value
import Idealize.ShloMosaic.Lib.ValueLayout

noncomputable section

open scoped BigOperators

namespace Cert.JoinedRows

open Idealize.ShloMosaic Idealize.ShloMosaic.ValueIdx

/-- A row `f` followed by a row `g`, indexed by the total width. -/
abbrev joined {A B C : Nat} (hC : C = A + B) (f : Fin A → EReal) (g : Fin B → EReal) : Fin C → EReal :=
  fun k => Fin.append f g (Fin.cast hC k)

/-- A sum over a joined row splits: the first part against the first weights plus the second part against the rest. -/
theorem sum_append_mul {A B C : Nat} (hC : C = A + B) (f : Fin A → EReal) (g : Fin B → EReal) (w : Fin C → EReal) :
    ∑ k : Fin C, joined hC f g k * w k
      = (∑ k : Fin A, f k * w ⟨k.val, by omega⟩) + ∑ k : Fin B, g k * w ⟨A + k.val, by omega⟩ := by
  subst hC
  rw [Fin.sum_univ_add]
  congr 1
  · refine Finset.sum_congr rfl fun k _ => ?_
    show Fin.append f g (Fin.castAdd B k) * w (Fin.castAdd B k) = _
    rw [Fin.append_left]
    rfl
  · refine Finset.sum_congr rfl fun k _ => ?_
    show Fin.append f g (Fin.natAdd A k) * w (Fin.natAdd A k) = _
    rw [Fin.append_right]
    rfl

/-- An entry of a joined row in its first part. -/
theorem joined_left {A B C : Nat} (hC : C = A + B) (f : Fin A → EReal) (g : Fin B → EReal) (j : Fin C) (k : Fin A)
    (hj : j.val = k.val) : joined hC f g j = f k := by
  subst hC
  have e : Fin.cast rfl j = Fin.castAdd B k := Fin.ext hj
  show Fin.append f g (Fin.cast rfl j) = f k
  rw [e, Fin.append_left]

/-- An entry of a joined row in its second part. -/
theorem joined_right {A B C : Nat} (hC : C = A + B) (f : Fin A → EReal) (g : Fin B → EReal) (j : Fin C) (k : Fin B)
    (hj : j.val = A + k.val) : joined hC f g j = g k := by
  subst hC
  have e : Fin.cast rfl j = Fin.natAdd A k := Fin.ext hj
  show Fin.append f g (Fin.cast rfl j) = g k
  rw [e, Fin.append_right]

/-- Two flat arrays concatenated: entry `j` is the joined row at `j`. -/
theorem concat_flat {A B C : Nat} (hC : C = A + B) (Y : (⟨1, ![A]⟩ : Shape).Idx → EReal) (Z : (⟨1, ![B]⟩ : Shape).Idx → EReal)
    (h : Shape.Concatenates [(⟨1, ![A]⟩ : Shape), ⟨1, ![B]⟩] ⟨1, ![C]⟩ (0 : Fin 1)) (j : Fin C) :
    concatenate ⟨1, ![C]⟩ (0 : Fin 1) [⟨⟨1, ![A]⟩, Y⟩, ⟨⟨1, ![B]⟩, Z⟩] h (ix1 j)
      = joined hC (fun k => Y (ix1 k)) (fun k => Z (ix1 k)) j := by
  by_cases hj : j.val < A
  · have e1 := concatenate_pair_apply_left (0 : Fin 1) Y Z h (ix1 j) rfl (ix1 ⟨j.val, hj⟩)
      (fun b => by match b with | ⟨0, _⟩ => rfl)
    rw [e1]
    exact (joined_left hC (fun k => Y (ix1 k)) (fun k => Z (ix1 k)) j ⟨j.val, hj⟩ rfl).symm
  · have hjB : j.val - A < B := by have := j.isLt; omega
    have e1 := concatenate_pair_apply_right (0 : Fin 1) Y Z h (ix1 j) rfl rfl (ix1 ⟨j.val - A, hjB⟩)
      (fun b hb => by match b with | ⟨0, _⟩ => exact absurd rfl hb)
      (by show (j.val - A) + A = j.val; omega)
    rw [e1]
    exact (joined_right hC (fun k => Y (ix1 k)) (fun k => Z (ix1 k)) j ⟨j.val - A, hjB⟩ (by show j.val = A + (j.val - A); omega)).symm

/-- A flat array made a one-column matrix reads, at `(r, u)`, the array at `r`. -/
theorem col_apply {α : Type} {a : Nat} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

section Rows
variable {M N : Nat}

/-- The logistic of a tile, entry by entry. -/
theorem logistic_rows (Y : FVec Ideal ⟨2, ![M, N]⟩ .f32) (yr : Fin M → Fin N → EReal) (hY : ∀ p q, Y (ix2 p q) = yr p q) :
    ∀ p q, logistic Y (ix2 p q) = Ideal.logistic (yr p q) := fun p q => congrArg Ideal.logistic (hY p q)

/-- The hyperbolic tangent of a tile, entry by entry. -/
theorem tanh_rows (Y : FVec Ideal ⟨2, ![M, N]⟩ .f32) (yr : Fin M → Fin N → EReal) (hY : ∀ p q, Y (ix2 p q) = yr p q) :
    ∀ p q, tanh Y (ix2 p q) = Ideal.tanh (yr p q) := fun p q => congrArg Ideal.tanh (hY p q)

/-- The product of two tiles, entry by entry. -/
theorem mul_rows (Y Z : FVec Ideal ⟨2, ![M, N]⟩ .f32) (yr zr : Fin M → Fin N → EReal)
    (hY : ∀ p q, Y (ix2 p q) = yr p q) (hZ : ∀ p q, Z (ix2 p q) = zr p q) :
    ∀ p q, mulf Y Z (ix2 p q) = yr p q * zr p q := fun p q => by rw [mulf_apply, hY p q, hZ p q]

end Rows

end Cert.JoinedRows

end
-- ==== Proof.Spec.lean ====
/-
  The debiased GRU cell, one row at a time, on the extended reals.

  A row of the batch carries an input row `x` of width 512 (two embeddings of width 256 side by side), a previous state
  `h` of width 256 and an attention score `a`. With the weights `Wr`, `Wu` (256 × 768), `Wh` (256 × 512) and biases:

      r_j  = σ( Σ_{k<768} [x | h]_k · Wr_{j,k} + br_j )                      the reset gate
      u_j  = σ( Σ_{k<768} [x | h]_k · Wu_{j,k} + bu_j )                      the update gate
      ĥ_q  = tanh( Σ_{k<512} [x_{<256} | r ⊙ h]_k · Wh_{q,k} + bh_q )        the candidate state
      out_q = (1 − a·u_q) · ĥ_q + (a·u_q) · h_q

  where `σ t = 1 / (1 + e^{−t})` and `[f | g]` is `f` followed by `g`. The one law of arithmetic used to compare two
  evaluation orders of this cell is that a sum over a concatenated row splits into the sum over its first part plus the
  sum over its second part (`JoinedRows.sum_append_mul`): only commutativity and associativity of addition, so it holds on the
  extended reals with no finiteness assumption.
-/
import proofs.«155390_j84052509982761_2_alg».proof.Proof.LibJoinedRows
import Idealize.ShloMosaic.PureOps.Ideal
import Idealize.ShloMosaic.Lib.IdealHost

noncomputable section

open scoped BigOperators

namespace Cert.GruCell

open Idealize.ShloMosaic Cert.JoinedRows

/-- The affine form of a gate or of the candidate: the joined row against one row of weights, plus the bias. -/
def affine {A B C : Nat} (hC : C = A + B) (f : Fin A → EReal) (g : Fin B → EReal) (w : Fin C → EReal) (b : EReal) : EReal :=
  (∑ k : Fin C, joined hC f g k * w k) + b

/-- A gate: the logistic of the affine form of `[x | h]`. -/
def gate (w : Fin 768 → EReal) (b : EReal) (x : Fin 512 → EReal) (h : Fin 256 → EReal) : EReal :=
  Ideal.logistic (affine (by norm_num : 768 = 512 + 256) x h w b)

/-- The first 256 entries of the input row (the first embedding). -/
abbrev firstHalf (x : Fin 512 → EReal) : Fin 256 → EReal := fun k => x ⟨k.val, by omega⟩

/-- The candidate state at column `q`. -/
def candidate (x : Fin 512 → EReal) (h : Fin 256 → EReal) (r : Fin 256 → EReal) (w : Fin 512 → EReal) (b : EReal) : EReal :=
  Ideal.tanh (affine (by norm_num : 512 = 256 + 256) (firstHalf x) (fun k => r k * h k) w b)

/-- The new state of one row at column `q`. -/
def cell (x : Fin 512 → EReal) (h : Fin 256 → EReal) (a : EReal)
    (Wr : Fin 256 → Fin 768 → EReal) (br : Fin 256 → EReal) (Wu : Fin 256 → Fin 768 → EReal) (bu : Fin 256 → EReal)
    (Wh : Fin 256 → Fin 512 → EReal) (bh : Fin 256 → EReal) (q : Fin 256) : EReal :=
  (1 - a * gate (Wu q) (bu q) x h) * candidate x h (fun j => gate (Wr j) (br j) x h) (Wh q) (bh q)
    + (a * gate (Wu q) (bu q) x h) * h q

/-- The affine form with its sum split in two: the form in which a computation that never joins the two parts
    evaluates it. -/
theorem affine_split {A B C : Nat} (hC : C = A + B) (f : Fin A → EReal) (g : Fin B → EReal) (w : Fin C → EReal) (b : EReal) :
    affine hC f g w b = ((∑ k : Fin A, f k * w ⟨k.val, by omega⟩) + ∑ k : Fin B, g k * w ⟨A + k.val, by omega⟩) + b := by
  unfold affine
  rw [sum_append_mul]

/-- The logistic written out with the float pattern of one: `1 / (1 + e^{−t})`. -/
theorem logistic_spelt (t : EReal) :
    Ideal.div (Ideal.ofBits .f32 0x3F800000#32) (Ideal.ofBits .f32 0x3F800000#32 + Ideal.exp (-t)) = Ideal.logistic t := by
  rw [Ideal.ofBits_one_f32]
  rfl

end Cert.GruCell

end
-- ==== Proof.SpecArr.lean ====
/-
  The cell over the whole batch: the array whose entry `(p, q)` is the cell of row `p` at column `q`, as one function
  of the nine argument arrays (65536 rows; input rows of width 512, states of width 256).
-/
import proofs.«155390_j84052509982761_2_alg».proof.Proof.Spec
import Idealize.ShloMosaic.Lib.ValueIdx

noncomputable section

namespace Cert.GruCell

open Idealize.ShloMosaic Idealize.ShloMosaic.ValueIdx

/-- The new state of every row of the batch. -/
def cellArr (X : (⟨2, ![65536, 512]⟩ : Shape).Idx → EReal) (H : (⟨2, ![65536, 256]⟩ : Shape).Idx → EReal)
    (A : (⟨1, ![65536]⟩ : Shape).Idx → EReal)
    (Wr : (⟨2, ![256, 768]⟩ : Shape).Idx → EReal) (br : (⟨1, ![256]⟩ : Shape).Idx → EReal)
    (Wu : (⟨2, ![256, 768]⟩ : Shape).Idx → EReal) (bu : (⟨1, ![256]⟩ : Shape).Idx → EReal)
    (Wh : (⟨2, ![256, 512]⟩ : Shape).Idx → EReal) (bh : (⟨1, ![256]⟩ : Shape).Idx → EReal) :
    (⟨2, ![65536, 256]⟩ : Shape).Idx → EReal :=
  fun i => cell (fun k => X (ix2 (n0 := 65536) (i 0) k)) (fun k => H (ix2 (n0 := 65536) (i 0) k)) (A (ix1 (n := 65536) (i 0)))
    (fun j k => Wr (ix2 j k)) (fun j => br (ix1 j)) (fun j k => Wu (ix2 j k)) (fun j => bu (ix1 j))
    (fun j k => Wh (ix2 j k)) (fun j => bh (ix1 j)) (i 1)

/-- Entry `(p, q)` of the batch array is the cell of row `p` at column `q`. -/
theorem cellArr_apply (X : (⟨2, ![65536, 512]⟩ : Shape).Idx → EReal) (H : (⟨2, ![65536, 256]⟩ : Shape).Idx → EReal)
    (A : (⟨1, ![65536]⟩ : Shape).Idx → EReal)
    (Wr : (⟨2, ![256, 768]⟩ : Shape).Idx → EReal) (br : (⟨1, ![256]⟩ : Shape).Idx → EReal)
    (Wu : (⟨2, ![256, 768]⟩ : Shape).Idx → EReal) (bu : (⟨1, ![256]⟩ : Shape).Idx → EReal)
    (Wh : (⟨2, ![256, 512]⟩ : Shape).Idx → EReal) (bh : (⟨1, ![256]⟩ : Shape).Idx → EReal) (p : Fin 65536) (q : Fin 256) :
    cellArr X H A Wr br Wu bu Wh bh (ix2 p q)
      = cell (fun k => X (ix2 p k)) (fun k => H (ix2 p k)) (A (ix1 p)) (fun j k => Wr (ix2 j k)) (fun j => br (ix1 j))
          (fun j k => Wu (ix2 j k)) (fun j => bu (ix1 j)) (fun j k => Wh (ix2 j k)) (fun j => bh (ix1 j)) q := rfl

end Cert.GruCell

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibHostRows.lean ====
/-
  Reading a host array of rows, operation by operation, at the extended reals: the host's product, its bias spread over
  the rows (a vector made a one-row matrix, then repeated), and its rectifier against a repeated zero constant. Each
  lemma takes the rows of the operand and returns the rows of the result, for arbitrary extents.
-/
import proofs.«155390_j84052509982761_2_alg».proof.Proof.LibPlainDot
import Idealize.ShloMosaic.Lib.Pipeline.Value

noncomputable section

namespace Cert.HostRows

open Idealize.ShloMosaic Idealize.ShloMosaic.ValueIdx

variable {M K N : Nat}

/-- The host's plain product: row `p` of the result is row `p` of the left operand times the matrix. -/
theorem dot_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (xr : Fin M → Fin K → EReal) (hX : ∀ p k, X (ix2 p k) = xr p k) :
    ∀ p q, Host.dotGeneral d prec X w (ix2 p q) = ∑ k : Fin K, xr p k * w (ix2 k q) := fun p q => by
  refine (Ideal.dotGeneral_apply d prec .single X w (ix2 p q)).trans ?_
  refine (Cert.PlainDot.sum_contr d hd X w p q).trans ?_
  exact Finset.sum_congr rfl fun k _ => by rw [hX p k]

/-- Adding a bias vector, made a one-row matrix and repeated over the rows. -/
theorem bias_rows (Y : FVec Ideal ⟨2, ![M, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (yr : Fin M → Fin N → EReal) (hY : ∀ p q, Y (ix2 p q) = yr p q) :
    ∀ p q, addf Y (broadcastInDim ⟨2, ![M, N]⟩ ![0, 1] h2 (broadcastInDim ⟨2, ![1, N]⟩ ![1] h1 b)) (ix2 p q) = yr p q + b (ix1 q) := fun p q => by
  rw [addf_apply, hY p q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- The rectifier against the zero constant repeated over the array. -/
theorem relu_rows (Y : FVec Ideal ⟨2, ![M, N]⟩ .f32) (h0 : (⟨0, ![]⟩ : Shape).BroadcastsInDim ⟨2, ![M, N]⟩ ![])
    (yr : Fin M → Fin N → EReal) (hY : ∀ p q, Y (ix2 p q) = yr p q) :
    ∀ p q, maximumf Y (broadcastInDim ⟨2, ![M, N]⟩ ![] h0 (constant (F := Ideal) ⟨0, ![]⟩ .f32 0x00000000#32)) (ix2 p q) = max (yr p q) 0 := fun p q => by
  rw [maximumf_apply, hY p q, broadcastInDim_apply ![] h0 _ (ix2 p q) ix0 (fun a => a.elim0), constant_apply, Ideal.ofBits_zero_f32]

end Cert.HostRows

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«155390_j84052509982761_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.RefRows.lean ====
/-
  The reference program's result, read row by row, is the cell of `Spec.lean`.

  The reference forms `[x | h]` by a concatenation along the columns, multiplies it by the transposed gate weights in
  one product of width 768, adds the bias repeated over the rows and applies `1 / (1 + e^{−t})` written out with
  negate, exponential, add and divide; the candidate is the product of `[x_{<256} | r ⊙ h]` with the transposed
  candidate weights, plus bias, under tanh; the attention score is repeated along the columns. Each stage below is
  stated as "row `p` of the result, at column `q`", so that the whole array is read by composing the stages.
-/
import proofs.«155390_j84052509982761_2_alg».proof.Proof.Spec
import proofs.«155390_j84052509982761_2_alg».proof.Proof.LibHostRows
import proofs.«155390_j84052509982761_2_alg».proof.Proof.LibTileRows
import proofs.«155390_j84052509982761_2_alg».proof.Proof.Gen.ReferenceIdeal
import Idealize.ShloMosaic.Lib.Pipeline.Value
import Idealize.ShloMosaic.Lib.ValueLayout
import Idealize.ShloMosaic.Lib.IdealHost

noncomputable section

namespace Cert.ReferenceIdeal.RefValue

open Cert.ReferenceIdeal Cert.ReferenceIdeal.Gen Idealize.ShloMosaic Idealize.ShloMosaic.ValueIdx Cert.GruCell Cert.JoinedRows

/-- The product of width 768 is a plain one: rows of the left operand against columns of the right. -/
theorem plain768 : Cert.PlainDot.IsPlain dot_S65536x768_S768x256_S65536x256_1_0_0_1_n_n := ⟨rfl, rfl, rfl, rfl, rfl, rfl⟩
/-- So is the candidate's product of width 512. -/
theorem plain512 : Cert.PlainDot.IsPlain dot_S65536x512_S512x256_S65536x256_1_0_0_1_n_n := ⟨rfl, rfl, rfl, rfl, rfl, rfl⟩

/-- The float pattern of one, repeated over an array, is one everywhere. -/
theorem one_apply {T : Shape} (h : (⟨0, ![]⟩ : Shape).BroadcastsInDim T ![]) (i : T.Idx) :
    broadcastInDim T ![] h (constant (F := Ideal) S_ .f32 0x3F800000#32) i = Ideal.ofBits .f32 0x3F800000#32 := by
  rw [broadcastInDim_scalar_apply h _ i, constant_apply]

/-- `1 / (1 + e^{−y})` in the host's operations, entry by entry, is the logistic of the entry. -/
theorem hostLogistic_apply {T : Shape} (h : (⟨0, ![]⟩ : Shape).BroadcastsInDim T ![]) (y : FVec Ideal T .f32) (i : T.Idx) :
    Host.divf (broadcastInDim T ![] h (constant (F := Ideal) S_ .f32 0x3F800000#32))
      (addf (broadcastInDim T ![] h (constant (F := Ideal) S_ .f32 0x3F800000#32)) (Host.exp (Host.negf y))) i
      = Ideal.logistic (y i) := by
  show Ideal.div (broadcastInDim T ![] h (constant (F := Ideal) S_ .f32 0x3F800000#32) i)
      (broadcastInDim T ![] h (constant (F := Ideal) S_ .f32 0x3F800000#32) i + Ideal.exp (-(y i))) = _
  rw [one_apply]
  exact logistic_spelt (y i)

/-- A gate as the reference computes it, over the whole batch. -/
def hostGate (x0 : FVec Ideal S65536x512 .f32) (x1 : FVec Ideal S65536x256 .f32) (W : FVec Ideal S256x768 .f32)
    (b : FVec Ideal S256 .f32) : FVec Ideal S65536x256 .f32 :=
  Host.divf (broadcastInDim S65536x256 ![] bcast_S_S65536x256 (constant S_ .f32 0x3F800000#32))
    (addf (broadcastInDim S65536x256 ![] bcast_S_S65536x256 (constant S_ .f32 0x3F800000#32))
      (Host.exp (Host.negf (addf
        (Host.dotGeneral dot_S65536x768_S768x256_S65536x256_1_0_0_1_n_n none
          (concatenate S65536x768 1 [⟨S65536x512, x0⟩, ⟨S65536x256, x1⟩] concatenates_S65536x512_S65536x256_S65536x768_d1)
          (transpose S768x256 [1, 0] W transposes_S256x768_S768x256_1_0))
        (broadcastInDim S65536x256 ![0, 1] bcast_S1x256_S65536x256_0_1 (broadcastInDim S1x256 ![1] bcast_S256_S1x256_1 b))))))

/-- The product of `[x | h]` with the transposed gate weights: entry `(p, q)` is the joined row `p` against row `q` of
    the weights. -/
theorem dot768_rows (x0 : FVec Ideal S65536x512 .f32) (x1 : FVec Ideal S65536x256 .f32) (W : FVec Ideal S256x768 .f32)
    (p : Fin 65536) (q : Fin 256) :
    Host.dotGeneral dot_S65536x768_S768x256_S65536x256_1_0_0_1_n_n none
        (concatenate S65536x768 1 [⟨S65536x512, x0⟩, ⟨S65536x256, x1⟩] concatenates_S65536x512_S65536x256_S65536x768_d1)
        (transpose S768x256 [1, 0] W transposes_S256x768_S768x256_1_0) (ix2 p q)
      = ∑ k : Fin 768, joined (by norm_num : 768 = 512 + 256) (fun k => x0 (ix2 p k)) (fun k => x1 (ix2 p k)) k * W (ix2 q k) := by
  refine (Cert.HostRows.dot_rows dot_S65536x768_S768x256_S65536x256_1_0_0_1_n_n plain768 none _ _
    (fun p => joined (by norm_num : 768 = 512 + 256) (fun k => x0 (ix2 p k)) (fun k => x1 (ix2 p k)))
    (Cert.TileRows.concat_rows (by norm_num : 512 + 256 = 768) x0 x1 concatenates_S65536x512_S65536x256_S65536x768_d1
      (fun p k => x0 (ix2 p k)) (fun p k => x1 (ix2 p k)) (fun _ _ => rfl) (fun _ _ => rfl)) p q).trans ?_
  refine Finset.sum_congr rfl fun k _ => ?_
  rw [transpose_apply [1, 0] W transposes_S256x768_S768x256_1_0 (ix2 k q) (ix2 q k) (fun b => match b with
    | ⟨0, _⟩ => rfl
    | ⟨1, _⟩ => rfl)]

/-- The reference's gate at `(p, q)` is the cell's gate of row `p` against row `q` of the weights. -/
theorem hostGate_rows (x0 : FVec Ideal S65536x512 .f32) (x1 : FVec Ideal S65536x256 .f32) (W : FVec Ideal S256x768 .f32)
    (b : FVec Ideal S256 .f32) (p : Fin 65536) (q : Fin 256) :
    hostGate x0 x1 W b (ix2 p q)
      = gate (fun k => W (ix2 q k)) (b (ix1 q)) (fun k => x0 (ix2 p k)) (fun k => x1 (ix2 p k)) := by
  unfold hostGate
  refine (hostLogistic_apply bcast_S_S65536x256 _ (ix2 p q)).trans ?_
  unfold gate affine
  refine congrArg Ideal.logistic ?_
  exact Cert.HostRows.bias_rows _ b bcast_S256_S1x256_1 bcast_S1x256_S65536x256_0_1 _ (dot768_rows x0 x1 W) p q

/-- The candidate state as the reference computes it, from a reset gate `r` given as an array. -/
def hostCand (x0 : FVec Ideal S65536x512 .f32) (x1 : FVec Ideal S65536x256 .f32) (r : FVec Ideal S65536x256 .f32)
    (W : FVec Ideal S256x512 .f32) (b : FVec Ideal S256 .f32) : FVec Ideal S65536x256 .f32 :=
  Host.tanh (addf
    (Host.dotGeneral dot_S65536x512_S512x256_S65536x256_1_0_0_1_n_n none
      (concatenate S65536x512 1 [⟨S65536x256, extractStridedSlice S65536x256 ![0, 0] x0 slices_S65536x512_S65536x256_0_0⟩,
        ⟨S65536x256, mulf r x1⟩] concatenates_S65536x256_S65536x256_S65536x512_d1)
      (transpose S512x256 [1, 0] W transposes_S256x512_S512x256_1_0))
    (broadcastInDim S65536x256 ![0, 1] bcast_S1x256_S65536x256_0_1 (broadcastInDim S1x256 ![1] bcast_S256_S1x256_1 b)))

/-- The product of `[x_{<256} | r ⊙ h]` with the transposed candidate weights, the reset gate described by its rows. -/
theorem dot512_rows (x0 : FVec Ideal S65536x512 .f32) (x1 : FVec Ideal S65536x256 .f32) (r : FVec Ideal S65536x256 .f32)
    (W : FVec Ideal S256x512 .f32) (rr : Fin 65536 → Fin 256 → EReal) (hr : ∀ p k, r (ix2 p k) = rr p k)
    (p : Fin 65536) (q : Fin 256) :
    Host.dotGeneral dot_S65536x512_S512x256_S65536x256_1_0_0_1_n_n none
        (concatenate S65536x512 1 [⟨S65536x256, extractStridedSlice S65536x256 ![0, 0] x0 slices_S65536x512_S65536x256_0_0⟩,
          ⟨S65536x256, mulf r x1⟩] concatenates_S65536x256_S65536x256_S65536x512_d1)
        (transpose S512x256 [1, 0] W transposes_S256x512_S512x256_1_0) (ix2 p q)
      = ∑ k : Fin 512, joined (by norm_num : 512 = 256 + 256) (firstHalf fun k => x0 (ix2 p k)) (fun k => rr p k * x1 (ix2 p k)) k
          * W (ix2 q k) := by
  refine (Cert.HostRows.dot_rows dot_S65536x512_S512x256_S65536x256_1_0_0_1_n_n plain512 none _ _
    (fun p => joined (by norm_num : 512 = 256 + 256) (firstHalf fun k => x0 (ix2 p k)) (fun k => rr p k * x1 (ix2 p k)))
    (Cert.TileRows.concat_rows (by norm_num : 256 + 256 = 512) _ _ concatenates_S65536x256_S65536x256_S65536x512_d1
      (fun p => firstHalf fun k => x0 (ix2 p k)) (fun p k => rr p k * x1 (ix2 p k))
      (fun p k => slice2_axis1_apply 0 x0 slices_S65536x512_S65536x256_0_0 p k ⟨k.val, by omega⟩ (Nat.zero_add _).symm)
      (fun p k => by rw [mulf_apply, hr])) p q).trans ?_
  refine Finset.sum_congr rfl fun k _ => ?_
  rw [transpose_apply [1, 0] W transposes_S256x512_S512x256_1_0 (ix2 k q) (ix2 q k) (fun b => match b with
    | ⟨0, _⟩ => rfl
    | ⟨1, _⟩ => rfl)]

/-- The reference's candidate at `(p, q)`, the reset gate described by its rows `rr`. -/
theorem hostCand_rows (x0 : FVec Ideal S65536x512 .f32) (x1 : FVec Ideal S65536x256 .f32) (r : FVec Ideal S65536x256 .f32)
    (W : FVec Ideal S256x512 .f32) (b : FVec Ideal S256 .f32) (rr : Fin 65536 → Fin 256 → EReal)
    (hr : ∀ p k, r (ix2 p k) = rr p k) (p : Fin 65536) (q : Fin 256) :
    hostCand x0 x1 r W b (ix2 p q)
      = candidate (fun k => x0 (ix2 p k)) (fun k => x1 (ix2 p k)) (rr p) (fun k => W (ix2 q k)) (b (ix1 q)) := by
  unfold hostCand
  show Ideal.tanh (_) = _
  unfold candidate affine
  refine congrArg Ideal.tanh ?_
  exact Cert.HostRows.bias_rows _ b bcast_S256_S1x256_1 bcast_S1x256_S65536x256_0_1 _ (dot512_rows x0 x1 r W rr hr) p q

/-- The reference's result over the whole batch, as a term in its nine arguments. -/
def refOut (X : FVec Ideal S65536x512 .f32) (H : FVec Ideal S65536x256 .f32) (A : FVec Ideal S65536 .f32)
    (Wr : FVec Ideal S256x768 .f32) (br : FVec Ideal S256 .f32) (Wu : FVec Ideal S256x768 .f32) (bu : FVec Ideal S256 .f32)
    (Wh : FVec Ideal S256x512 .f32) (bh : FVec Ideal S256 .f32) : FVec Ideal S65536x256 .f32 :=
  addf
    (mulf
      (subf (broadcastInDim S65536x256 ![] bcast_S_S65536x256 (constant S_ .f32 0x3F800000#32))
        (mulf (broadcastInDim S65536x256 ![0, 1] bcast_S65536x1_S65536x256_0_1 (broadcastInDim S65536x1 ![0] bcast_S65536_S65536x1_0 A))
          (hostGate X H Wu bu)))
      (hostCand X H (hostGate X H Wr br) Wh bh))
    (mulf
      (mulf (broadcastInDim S65536x256 ![0, 1] bcast_S65536x1_S65536x256_0_1 (broadcastInDim S65536x1 ![0] bcast_S65536_S65536x1_0 A))
        (hostGate X H Wu bu))
      H)

/-- The attention score made a column and repeated along the columns reads, at `(p, q)`, the score of row `p`. -/
theorem score_apply (A : FVec Ideal S65536 .f32) (p : Fin 65536) (q : Fin 256) :
    broadcastInDim S65536x256 ![0, 1] bcast_S65536x1_S65536x256_0_1 (broadcastInDim S65536x1 ![0] bcast_S65536_S65536x1_0 A) (ix2 p q)
      = A (ix1 p) := by
  rw [broadcastInDim_apply ![0, 1] bcast_S65536x1_S65536x256_0_1 _ (ix2 p q) (ix2 p (0 : Fin 1)) (fun a => by
    match a with
    | ⟨0, _⟩ => show p.val = if (65536 : Nat) = 1 then 0 else p.val; rw [if_neg (by decide)]
    | ⟨1, _⟩ => show 0 = if (1 : Nat) = 1 then 0 else q.val; rw [if_pos rfl])]
  rw [broadcastInDim_apply ![0] bcast_S65536_S65536x1_0 A (ix2 p (0 : Fin 1)) (ix1 p) (fun a => by
    match a with
    | ⟨0, _⟩ => show p.val = if (65536 : Nat) = 1 then 0 else p.val; rw [if_neg (by decide)])]

/-- THE REFERENCE IS THE CELL: entry `(p, q)` of its result is the cell of row `p` at column `q`. -/
theorem refOut_rows (X : FVec Ideal S65536x512 .f32) (H : FVec Ideal S65536x256 .f32) (A : FVec Ideal S65536 .f32)
    (Wr : FVec Ideal S256x768 .f32) (br : FVec Ideal S256 .f32) (Wu : FVec Ideal S256x768 .f32) (bu : FVec Ideal S256 .f32)
    (Wh : FVec Ideal S256x512 .f32) (bh : FVec Ideal S256 .f32) (p : Fin 65536) (q : Fin 256) :
    refOut X H A Wr br Wu bu Wh bh (ix2 p q)
      = cell (fun k => X (ix2 p k)) (fun k => H (ix2 p k)) (A (ix1 p)) (fun j k => Wr (ix2 j k)) (fun j => br (ix1 j))
          (fun j k => Wu (ix2 j k)) (fun j => bu (ix1 j)) (fun j k => Wh (ix2 j k)) (fun j => bh (ix1 j)) q := by
  unfold refOut cell
  rw [addf_apply, mulf_apply, mulf_apply, mulf_apply, subf_apply, mulf_apply, score_apply, one_apply,
    Ideal.ofBits_one_f32, hostGate_rows,
    hostCand_rows X H (hostGate X H Wr br) Wh bh _ (fun p k => hostGate_rows X H Wr br p k) p q]

end Cert.ReferenceIdeal.RefValue

end
-- ==== Proof.RefArray.lean ====
/-
  The reference's result over the whole batch is the batch array of cells: the row-by-row reading of `RefRows.lean`,
  at every index.
-/
import proofs.«155390_j84052509982761_2_alg».proof.Proof.SpecArr
import proofs.«155390_j84052509982761_2_alg».proof.Proof.RefRows

noncomputable section

namespace Cert.ReferenceIdeal.RefValue

open Cert.ReferenceIdeal Idealize.ShloMosaic Idealize.ShloMosaic.ValueIdx Cert.GruCell

/-- The reference's composed term of its nine arguments is the batch array of cells of those arguments. -/
theorem refOut_eq (X : FVec Ideal S65536x512 .f32) (H : FVec Ideal S65536x256 .f32) (A : FVec Ideal S65536 .f32)
    (Wr : FVec Ideal S256x768 .f32) (br : FVec Ideal S256 .f32) (Wu : FVec Ideal S256x768 .f32) (bu : FVec Ideal S256 .f32)
    (Wh : FVec Ideal S256x512 .f32) (bh : FVec Ideal S256 .f32) :
    refOut X H A Wr br Wu bu Wh bh = cellArr X H A Wr br Wu bu Wh bh := funext fun i => by
  obtain ⟨p, q, rfl⟩ : ∃ (p : Fin 65536) (q : Fin 256), i = ix2 p q := ⟨i 0, i 1, eq_ix2 i⟩
  exact (refOut_rows X H A Wr br Wu bu Wh bh p q).trans (cellArr_apply X H A Wr br Wu bu Wh bh p q).symm

end Cert.ReferenceIdeal.RefValue

end
-- ==== Proof.KernelTile.lean ====
/-
  One tile of 2048 rows of the cell, as the idealized body computes it, is the cell of `Spec.lean` row by row.

  The body never joins `[x | h]`: it multiplies `x` by the first 512 rows of the fused, transposed gate weights and `h`
  by the last 256 rows, adds the two products and the fused bias, and takes the reset gate from columns 0–255 of the
  result and the update gate from columns 256–511; likewise the candidate is the sum of two products of width 256. The
  law that makes this the cell is the splitting of a sum over a joined row (`GruCell.affine_split`). A change of float
  format is the identity on the extended reals, and a product into a zero accumulator is the plain sum of products.

  The block's operands are described by hypotheses: the three batch operands by their rows, the six weight operands by
  what they hold of the gate and candidate weights.
-/
import proofs.«155390_j84052509982761_2_alg».proof.Proof.Spec
import proofs.«155390_j84052509982761_2_alg».proof.Proof.LibTileRows
import proofs.«155390_j84052509982761_2_alg».proof.Proof.Gen.KernelIdeal.Value
import Idealize.ShloMosaic.Lib.Pipeline.Value
import Idealize.ShloMosaic.Lib.ValueLayout
import Idealize.ShloMosaic.Lib.IdealHost

noncomputable section

namespace Cert.KernelIdeal.Tile

open Cert.KernelIdeal Cert.KernelIdeal.Gen Cert.KernelIdeal.Value Idealize.ShloMosaic Idealize.ShloMosaic.ValueIdx Cert.GruCell Cert.JoinedRows

/-! ## The body's three products are plain ones -/

theorem plainX : Cert.PlainDot.IsPlain dot_S2048x512_S512x512_S2048x512_1_0_0_1_n_n := ⟨rfl, rfl, rfl, rfl, rfl, rfl⟩
theorem plainH : Cert.PlainDot.IsPlain dot_S2048x256_S256x512_S2048x512_1_0_0_1_n_n := ⟨rfl, rfl, rfl, rfl, rfl, rfl⟩
theorem plainC : Cert.PlainDot.IsPlain dot_S2048x256_S256x256_S2048x256_1_0_0_1_n_n := ⟨rfl, rfl, rfl, rfl, rfl, rfl⟩

/-! ## The fused gate logits and the candidate, from the operands' entries -/

/-- The fused logits of both gates at `(p, j)`, `j < 512`: `x`'s product plus `h`'s product plus the fused bias. -/
theorem logits_rows (P1 : FVec Ideal S2048x512 .f32) (P2 : FVec Ideal S2048x256 .f32) (P3 : FVec Ideal S512x512 .bf16)
    (P4 : FVec Ideal S256x512 .bf16) (P5 : FVec Ideal S1x512 .f32) (p : Fin 2048) (j : Fin 512) :
    k0_pay3 (F := Ideal) P1 P2 P3 P4 P5 (ix2 p j)
      = ((∑ k : Fin 512, P1 (ix2 p k) * P3 (ix2 k j)) + ∑ k : Fin 256, P2 (ix2 p k) * P4 (ix2 k j)) + P5 (ix2 (0 : Fin 1) j) := by
  unfold k0_pay3 k0_pay2
  exact Cert.TileRows.bias_rows _ P5 shapeCasts_S1x512_S1x512 broadcasts_S1x512_S2048x512 _
    (Cert.TileRows.add_rows _ _ _ _
      (Cert.TileRows.mm_rows dot_S2048x512_S512x512_S2048x512_1_0_0_1_n_n plainX none _ P3 shapeCasts_S512x512_S512x512
        (fun p k => P1 (ix2 p k)) (Cert.TileRows.trunc_rows P1 bitsLt_bf16_f32 _ (fun _ _ => rfl)))
      (Cert.TileRows.mm_rows dot_S2048x256_S256x512_S2048x512_1_0_0_1_n_n plainH none _ P4 shapeCasts_S256x512_S256x512
        (fun p k => P2 (ix2 p k)) (Cert.TileRows.trunc_rows P2 bitsLt_bf16_f32 _ (fun _ _ => rfl)))) p j

/-- The candidate at `(p, q)`: the first half of `x` against the first candidate weights, plus `σ(reset logits) ⊙ h`
    against the second, plus the bias, under tanh. -/
theorem cand_rows (P1 : FVec Ideal S2048x512 .f32) (P2 : FVec Ideal S2048x256 .f32) (P3 : FVec Ideal S512x512 .bf16)
    (P4 : FVec Ideal S256x512 .bf16) (P5 : FVec Ideal S1x512 .f32) (P6 P7 : FVec Ideal S256x256 .bf16) (P8 : FVec Ideal S1x256 .f32)
    (p : Fin 2048) (q : Fin 256) :
    k0_pay5 (F := Ideal) P1 P2 P3 P4 P5 P6 P7 P8 (ix2 p q)
      = Ideal.tanh (((∑ k : Fin 256, P1 (ix2 p ⟨0 + k.val, by omega⟩) * P6 (ix2 k q))
          + ∑ k : Fin 256, (Ideal.logistic (k0_pay3 (F := Ideal) P1 P2 P3 P4 P5 (ix2 p ⟨0 + k.val, by omega⟩)) * P2 (ix2 p k)) * P7 (ix2 k q))
          + P8 (ix2 (0 : Fin 1) q)) := by
  unfold k0_pay5 k0_pay2
  exact tanh_rows _ _
    (Cert.TileRows.bias_rows _ P8 shapeCasts_S1x256_S1x256 broadcasts_S1x256_S2048x256 _
      (Cert.TileRows.add_rows _ _ _ _
        (Cert.TileRows.mm_rows dot_S2048x256_S256x256_S2048x256_1_0_0_1_n_n plainC none _ P6 shapeCasts_S256x256_S256x256
          (fun p k => P1 (ix2 p ⟨0 + k.val, by omega⟩))
          (Cert.TileRows.cols_rows 0 _ slices_S2048x512_o0_0_S2048x256 (by norm_num) (fun p k => P1 (ix2 p k))
            (Cert.TileRows.trunc_rows P1 bitsLt_bf16_f32 _ (fun _ _ => rfl))))
        (Cert.TileRows.mm_rows dot_S2048x256_S256x256_S2048x256_1_0_0_1_n_n plainC none _ P7 shapeCasts_S256x256_S256x256
          (fun p k => Ideal.logistic (k0_pay3 (F := Ideal) P1 P2 P3 P4 P5 (ix2 p ⟨0 + k.val, by omega⟩)) * P2 (ix2 p k))
          (Cert.TileRows.trunc_rows _ bitsLt_bf16_f32 _
            (mul_rows _ P2 _ _
              (logistic_rows _ _
                (Cert.TileRows.cols_rows 0 _ slices_S2048x512_o0_0_S2048x256 (by norm_num)
                  (fun p j => k0_pay3 (F := Ideal) P1 P2 P3 P4 P5 (ix2 p j)) (fun _ _ => rfl)))
              (fun _ _ => rfl)))))) p q

/-! ## The tile is the cell -/

/-- THE TILE IS THE CELL. `P0 … P8` are the body's nine loads (score column, `x` tile, `h` tile, the two fused gate
    weight blocks, the fused gate bias, the two candidate weight blocks, the candidate bias); the block the body leaves,
    at `(p, q)`, is the cell of row `p` at column `q`. -/
theorem tile_rows (P0 : Vec Ideal S2048x1 .f32) (P1 : Vec Ideal S2048x512 .f32) (P2 : Vec Ideal S2048x256 .f32)
    (P3 : Vec Ideal S512x512 .bf16) (P4 : Vec Ideal S256x512 .bf16) (P5 : Vec Ideal S1x512 .f32)
    (P6 : Vec Ideal S256x256 .bf16) (P7 : Vec Ideal S256x256 .bf16) (P8 : Vec Ideal S1x256 .f32)
    (x : Fin 2048 → Fin 512 → EReal) (h : Fin 2048 → Fin 256 → EReal) (a : Fin 2048 → EReal)
    (Wr : Fin 256 → Fin 768 → EReal) (br : Fin 256 → EReal) (Wu : Fin 256 → Fin 768 → EReal) (bu : Fin 256 → EReal)
    (Wh : Fin 256 → Fin 512 → EReal) (bh : Fin 256 → EReal)
    (h0 : ∀ p, P0 (ix2 p (0 : Fin 1)) = a p) (h1 : ∀ p k, P1 (ix2 p k) = x p k) (h2 : ∀ p k, P2 (ix2 p k) = h p k)
    (h3 : ∀ (k : Fin 512) (j : Fin 512), P3 (ix2 k j)
      = joined (by norm_num : 512 = 256 + 256) (fun j => Wr j ⟨k.val, by omega⟩) (fun j => Wu j ⟨k.val, by omega⟩) j)
    (h4 : ∀ (k : Fin 256) (j : Fin 512), P4 (ix2 k j)
      = joined (by norm_num : 512 = 256 + 256) (fun j => Wr j ⟨512 + k.val, by omega⟩) (fun j => Wu j ⟨512 + k.val, by omega⟩) j)
    (h5 : ∀ j : Fin 512, P5 (ix2 (0 : Fin 1) j) = joined (by norm_num : 512 = 256 + 256) br bu j)
    (h6 : ∀ k q : Fin 256, P6 (ix2 k q) = Wh q ⟨k.val, by omega⟩)
    (h7 : ∀ k q : Fin 256, P7 (ix2 k q) = Wh q ⟨256 + k.val, by omega⟩)
    (h8 : ∀ q : Fin 256, P8 (ix2 (0 : Fin 1) q) = bh q)
    (p : Fin 2048) (q : Fin 256) :
    E9 (F := Ideal) P0 P1 P2 P3 P4 P5 P6 P7 P8 (ix2 p q) = cell (x p) (h p) (a p) Wr br Wu bu Wh bh q := by
  -- the reset logits sit in columns 0–255 of the fused logits, the update logits in columns 256–511
  have hR : ∀ j : Fin 256, k0_pay3 (F := Ideal) P1 P2 P3 P4 P5 (ix2 p ⟨0 + j.val, by omega⟩)
      = affine (by norm_num : 768 = 512 + 256) (x p) (h p) (Wr j) (br j) := fun j => by
    rw [logits_rows, affine_split, h5, joined_left _ br bu _ j (Nat.zero_add _)]
    congr 2
    · exact Finset.sum_congr rfl fun k _ => by rw [h1, h3, joined_left _ _ _ _ j (Nat.zero_add _)]
    · exact Finset.sum_congr rfl fun k _ => by rw [h2, h4, joined_left _ _ _ _ j (Nat.zero_add _)]
  have hU : k0_pay3 (F := Ideal) P1 P2 P3 P4 P5 (ix2 p ⟨q.val + 256, by omega⟩)
      = affine (by norm_num : 768 = 512 + 256) (x p) (h p) (Wu q) (bu q) := by
    rw [logits_rows, affine_split, h5, joined_right _ br bu _ q (Nat.add_comm _ _)]
    congr 2
    · exact Finset.sum_congr rfl fun k _ => by rw [h1, h3, joined_right _ _ _ _ q (Nat.add_comm _ _)]
    · exact Finset.sum_congr rfl fun k _ => by rw [h2, h4, joined_right _ _ _ _ q (Nat.add_comm _ _)]
  have hC : k0_pay5 (F := Ideal) P1 P2 P3 P4 P5 P6 P7 P8 (ix2 p q)
      = candidate (x p) (h p) (fun j => gate (Wr j) (br j) (x p) (h p)) (Wh q) (bh q) := by
    rw [cand_rows]
    unfold candidate
    rw [affine_split, h8]
    congr 3
    · exact Finset.sum_congr rfl fun k _ => by
        rw [h1, h6]
        exact congrArg (fun i => x p i * Wh q ⟨k.val, by omega⟩) (Fin.ext (Nat.zero_add _))
    · exact Finset.sum_congr rfl fun k _ => by rw [hR k, h2, h7]; rfl
  -- where the block index reads each operand
  have e0 : ix9_0 (ix2 p q) = ix2 p (0 : Fin 1) := funext fun a => by match a with | ⟨0, _⟩ => rfl | ⟨1, _⟩ => rfl
  have e1 : ix9_1 (ix2 p q) = ix2 p (⟨q.val + 256, by omega⟩ : Fin 512) := funext fun a => by match a with | ⟨0, _⟩ => rfl | ⟨1, _⟩ => rfl
  have e2 : ix9_2 (ix2 p q) = ix2 p q := funext fun a => by match a with | ⟨0, _⟩ => rfl | ⟨1, _⟩ => rfl
  have e3 : ix9_3 (ix2 p q) = ix2 p (0 : Fin 1) := funext fun a => by match a with | ⟨0, _⟩ => rfl | ⟨1, _⟩ => rfl
  have e4 : ix9_4 (ix2 p q) = ix2 p (⟨q.val + 256, by omega⟩ : Fin 512) := funext fun a => by match a with | ⟨0, _⟩ => rfl | ⟨1, _⟩ => rfl
  have e5 : ix9_5 (ix2 p q) = ix2 p q := funext fun a => by match a with | ⟨0, _⟩ => rfl | ⟨1, _⟩ => rfl
  show (Ideal.ofBits .f32 0x3F800000#32 - P0 (ix9_0 (ix2 p q)) * Ideal.logistic (k0_pay3 (F := Ideal) P1 P2 P3 P4 P5 (ix9_1 (ix2 p q))))
        * k0_pay5 (F := Ideal) P1 P2 P3 P4 P5 P6 P7 P8 (ix9_2 (ix2 p q))
      + (P0 (ix9_3 (ix2 p q)) * Ideal.logistic (k0_pay3 (F := Ideal) P1 P2 P3 P4 P5 (ix9_4 (ix2 p q)))) * P2 (ix9_5 (ix2 p q)) = _
  rw [e0, e1, e2, e3, e4, e5, h0, h2, hU, hC, Ideal.ofBits_one_f32]
  rfl

end Cert.KernelIdeal.Tile

end
-- ==== Proof.HostWeights.lean ====
/-
  What the body's weight operands and score column hold when the region is entered.

  Before the region the program transposes the three weight matrices, sets the two transposed gate weights side by
  side (768 × 512), cuts that into its first 512 rows and its last 256 rows, cuts the transposed candidate weights
  (512 × 256) into two blocks of 256 rows, joins the two gate biases, and makes the biases one-row matrices and the
  score a one-column matrix; each cut is then changed to the narrower float format, which is the identity on the
  extended reals. Each array is read here at an index, in terms of the argument arrays.
-/
import proofs.«155390_j84052509982761_2_alg».proof.Proof.Spec
import proofs.«155390_j84052509982761_2_alg».proof.Proof.LibTileRows
import proofs.«155390_j84052509982761_2_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.Weights

open Cert.KernelIdeal Cert.KernelIdeal.Gen Idealize.ShloMosaic Idealize.ShloMosaic.TcCoe Idealize.ShloMosaic.ValueIdx
open Idealize.ShloMosaic.StableHlo Cert.GruCell Cert.JoinedRows

/-! ## The layout operations, at an index -/

/-- Rows `o … o + m − 1` of the two transposed gate weights set side by side: row `k` is column `o + k` of the reset
    weights followed by column `o + k` of the update weights. -/
theorem fused_apply {mm : Nat} (o : Nat) (Wr Wu : FVec Ideal S256x768 .f32)
    (hs : S768x512.Slices ![o, 0] ⟨2, ![mm, 512]⟩) (k : Fin mm) (j : Fin 512) (k' : Fin 768) (hk : k'.val = o + k.val) :
    extractStridedSlice ⟨2, ![mm, 512]⟩ ![o, 0]
        (concatenate S768x512 1 [⟨S768x256, transpose S768x256 [1, 0] Wr transposes_S256x768_S768x256_1_0⟩,
          ⟨S768x256, transpose S768x256 [1, 0] Wu transposes_S256x768_S768x256_1_0⟩] concatenates_S768x256_S768x256_S768x512_d1)
        hs (ix2 k j)
      = joined (by norm_num : 512 = 256 + 256) (fun j => Wr (ix2 j k')) (fun j => Wu (ix2 j k')) j := by
  rw [slice2_axis0_apply o _ hs k j k' hk]
  exact Cert.TileRows.concat_rows (by norm_num : 256 + 256 = 512) _ _ concatenates_S768x256_S768x256_S768x512_d1
    (fun k' j => Wr (ix2 j k')) (fun k' j => Wu (ix2 j k'))
    (fun k' j => transpose_apply [1, 0] Wr transposes_S256x768_S768x256_1_0 (ix2 k' j) (ix2 j k') (fun b => match b with
      | ⟨0, _⟩ => rfl
      | ⟨1, _⟩ => rfl))
    (fun k' j => transpose_apply [1, 0] Wu transposes_S256x768_S768x256_1_0 (ix2 k' j) (ix2 j k') (fun b => match b with
      | ⟨0, _⟩ => rfl
      | ⟨1, _⟩ => rfl)) k' j

/-- Rows `o … o + 255` of the transposed candidate weights: entry `(k, q)` is the weight `(q, o + k)`. -/
theorem cand_apply (o : Nat) (Wh : FVec Ideal S256x512 .f32) (hs : S512x256.Slices ![o, 0] S256x256)
    (k q : Fin 256) (k' : Fin 512) (hk : k'.val = o + k.val) :
    extractStridedSlice S256x256 ![o, 0] (transpose S512x256 [1, 0] Wh transposes_S256x512_S512x256_1_0) hs (ix2 k q)
      = Wh (ix2 q k') := by
  rw [slice2_axis0_apply o _ hs k q k' hk]
  exact transpose_apply [1, 0] Wh transposes_S256x512_S512x256_1_0 (ix2 k' q) (ix2 q k') (fun b => match b with
    | ⟨0, _⟩ => rfl
    | ⟨1, _⟩ => rfl)

/-! ## The seven arrays as the region finds them -/

variable (m : (ℓ : Loc nD τ sig) → Buf (Elt Ideal) ℓ)

/-- The first fused gate weight block (512 × 512). -/
theorem wruIn_apply (c : Dev nD) (k j : Fin 512) :
    (V m c main_v5 : S512x512.Idx → EReal) (ix2 k j)
      = joined (by norm_num : 512 = 256 + 256)
          (fun j => (m ((c : Thread nD τ).loc main_arg3) : S256x768.Idx → EReal) (ix2 j ⟨k.val, by omega⟩))
          (fun j => (m ((c : Thread nD τ).loc main_arg5) : S256x768.Idx → EReal) (ix2 j ⟨k.val, by omega⟩)) j := by
  have e : (V m c main_v5 : S512x512.Idx → EReal)
      = truncf (F := Ideal) .bf16 (extractStridedSlice S512x512 ![0, 0]
          (concatenate S768x512 1 [⟨S768x256, transpose S768x256 [1, 0] (m ((c : Thread nD τ).loc main_arg3)) transposes_S256x768_S768x256_1_0⟩,
            ⟨S768x256, transpose S768x256 [1, 0] (m ((c : Thread nD τ).loc main_arg5)) transposes_S256x768_S768x256_1_0⟩]
            concatenates_S768x256_S768x256_S768x512_d1) slices_S768x512_S512x512_0_0) bitsLt_bf16_f32 := by
    dsimp only [Gen.V, Gen.hostOps0]; after_results
  rw [e]
  exact fused_apply 0 _ _ slices_S768x512_S512x512_0_0 k j ⟨k.val, by omega⟩ (Nat.zero_add _).symm

/-- The second fused gate weight block (256 × 512): rows 512–767 of the fused weights. -/
theorem wruH_apply (c : Dev nD) (k : Fin 256) (j : Fin 512) :
    (V m c main_v7 : S256x512.Idx → EReal) (ix2 k j)
      = joined (by norm_num : 512 = 256 + 256)
          (fun j => (m ((c : Thread nD τ).loc main_arg3) : S256x768.Idx → EReal) (ix2 j ⟨512 + k.val, by omega⟩))
          (fun j => (m ((c : Thread nD τ).loc main_arg5) : S256x768.Idx → EReal) (ix2 j ⟨512 + k.val, by omega⟩)) j := by
  have e : (V m c main_v7 : S256x512.Idx → EReal)
      = truncf (F := Ideal) .bf16 (extractStridedSlice S256x512 ![512, 0]
          (concatenate S768x512 1 [⟨S768x256, transpose S768x256 [1, 0] (m ((c : Thread nD τ).loc main_arg3)) transposes_S256x768_S768x256_1_0⟩,
            ⟨S768x256, transpose S768x256 [1, 0] (m ((c : Thread nD τ).loc main_arg5)) transposes_S256x768_S768x256_1_0⟩]
            concatenates_S768x256_S768x256_S768x512_d1) slices_S768x512_S256x512_512_0) bitsLt_bf16_f32 := by
    dsimp only [Gen.V, Gen.hostOps0]; after_results
  rw [e]
  exact fused_apply 512 _ _ slices_S768x512_S256x512_512_0 k j ⟨512 + k.val, by omega⟩ rfl

/-- The fused gate bias as a one-row matrix. -/
theorem bru_apply (c : Dev nD) (j : Fin 512) :
    (V m c main_v13 : S1x512.Idx → EReal) (ix2 (0 : Fin 1) j)
      = joined (by norm_num : 512 = 256 + 256)
          (fun j => (m ((c : Thread nD τ).loc main_arg4) : S256.Idx → EReal) (ix1 j))
          (fun j => (m ((c : Thread nD τ).loc main_arg6) : S256.Idx → EReal) (ix1 j)) j := by
  have e : (V m c main_v13 : S1x512.Idx → EReal)
      = shapeCast S1x512 (concatenate S512 0 [⟨S256, m ((c : Thread nD τ).loc main_arg4)⟩, ⟨S256, m ((c : Thread nD τ).loc main_arg6)⟩]
          concatenates_S256_S256_S512_d0) shapeCasts_S512_S1x512 := by
    dsimp only [Gen.V, Gen.hostOps0]; after_results; rfl
  rw [e, shapeCast_a_1a_apply]
  exact concat_flat (by norm_num : 512 = 256 + 256) _ _ concatenates_S256_S256_S512_d0 j

/-- The first candidate weight block (256 × 256). -/
theorem whInt_apply (c : Dev nD) (k q : Fin 256) :
    (V m c main_v9 : S256x256.Idx → EReal) (ix2 k q)
      = (m ((c : Thread nD τ).loc main_arg7) : S256x512.Idx → EReal) (ix2 q ⟨k.val, by omega⟩) := by
  have e : (V m c main_v9 : S256x256.Idx → EReal)
      = truncf (F := Ideal) .bf16 (extractStridedSlice S256x256 ![0, 0]
          (transpose S512x256 [1, 0] (m ((c : Thread nD τ).loc main_arg7)) transposes_S256x512_S512x256_1_0) slices_S512x256_S256x256_0_0)
          bitsLt_bf16_f32 := by
    dsimp only [Gen.V, Gen.hostOps0]; after_results
  rw [e]
  exact cand_apply 0 _ slices_S512x256_S256x256_0_0 k q ⟨k.val, by omega⟩ (Nat.zero_add _).symm

/-- The second candidate weight block (256 × 256): rows 256–511 of the transposed candidate weights. -/
theorem whRh_apply (c : Dev nD) (k q : Fin 256) :
    (V m c main_v11 : S256x256.Idx → EReal) (ix2 k q)
      = (m ((c : Thread nD τ).loc main_arg7) : S256x512.Idx → EReal) (ix2 q ⟨256 + k.val, by omega⟩) := by
  have e : (V m c main_v11 : S256x256.Idx → EReal)
      = truncf (F := Ideal) .bf16 (extractStridedSlice S256x256 ![256, 0]
          (transpose S512x256 [1, 0] (m ((c : Thread nD τ).loc main_arg7)) transposes_S256x512_S512x256_1_0) slices_S512x256_S256x256_256_0)
          bitsLt_bf16_f32 := by
    dsimp only [Gen.V, Gen.hostOps0]; after_results
  rw [e]
  exact cand_apply 256 _ slices_S512x256_S256x256_256_0 k q ⟨256 + k.val, by omega⟩ rfl

/-- The candidate bias as a one-row matrix. -/
theorem bh_apply (c : Dev nD) (q : Fin 256) :
    (V m c main_v14 : S1x256.Idx → EReal) (ix2 (0 : Fin 1) q) = (m ((c : Thread nD τ).loc main_arg8) : S256.Idx → EReal) (ix1 q) := by
  have e : (V m c main_v14 : S1x256.Idx → EReal) = shapeCast S1x256 (m ((c : Thread nD τ).loc main_arg8)) shapeCasts_S256_S1x256 := by
    dsimp only [Gen.V, Gen.hostOps0]; after_results; rfl
  rw [e, shapeCast_a_1a_apply]

/-- The attention score as a one-column matrix. -/
theorem score_apply (c : Dev nD) (r : Fin 65536) :
    (V m c main_v15 : S65536x1.Idx → EReal) (ix2 r (0 : Fin 1)) = (m ((c : Thread nD τ).loc main_arg2) : S65536.Idx → EReal) (ix1 r) := by
  have e : (V m c main_v15 : S65536x1.Idx → EReal) = shapeCast S65536x1 (m ((c : Thread nD τ).loc main_arg2)) shapeCasts_S65536_S65536x1 := by
    dsimp only [Gen.V, Gen.hostOps0]; after_results; rfl
  rw [e, col_apply]

end Cert.KernelIdeal.Weights

end
-- ==== Proof.KernelArray.lean ====
/-
  From the 32 tiles to the whole result array.

  Grid point `t` stages rows `2048·t … 2048·t + 2047` of the input rows, of the previous state and of the score column,
  the whole of each weight operand, and writes back rows `2048·t … 2048·t + 2047` of the result. So what point `t` writes
  back is block `t` of the batch array of cells (`GruCell.cellArr` of the arguments), by the tile lemma of
  `KernelTile.lean` and the contents of the weight operands of `HostWeights.lean`; the 32 blocks cover the 65536 rows, so
  the result array ends holding the batch array of cells.
-/
import proofs.«155390_j84052509982761_2_alg».proof.Proof.SpecArr
import proofs.«155390_j84052509982761_2_alg».proof.Proof.KernelTile
import proofs.«155390_j84052509982761_2_alg».proof.Proof.HostWeights
import proofs.«155390_j84052509982761_2_alg».proof.Proof.Gen.KernelIdeal.Value
import Idealize.ShloMosaic.Lib.Pipeline.Value

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx Cert.GruCell
open Idealize.ShloMosaic.Pipeline (Dat)

variable (m : (ℓ : Loc nD τ sig) → Buf (Elt Ideal) ℓ) (ρ : Dev nD → PrngReg)

/-- The batch array of cells of the arguments as launched. -/
abbrev result (c : Dev nD) : S65536x256.Idx → EReal :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A grid point is one of 32. -/
theorem point_lt (t : Fin cfg0.N) : t.val < 32 := lt_of_lt_of_eq t.isLt N_0

/-- The row of the batch that row `p` of tile `t` is. -/
def row (t : Fin cfg0.N) (p : Fin 2048) : Fin 65536 := ⟨t.val * 2048 + p.val, by have := point_lt t; have := p.isLt; omega⟩

/-- The printed index maps, decided over the grid: the three batch operands and the result move down one block of rows
    per point; the six weight operands stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-! ## Each operand's block at a point, entry by entry -/

/-- The input rows' block at point `t`. -/
theorem x_block (c : Dev nD) (t : Fin cfg0.N) (p : Fin 2048) (k : Fin 512) :
    (iblk m c 0 t : Vec Ideal S2048x512 .f32) (ix2 p k)
      = (m ((c : Thread nD τ).loc main_arg0) : S65536x512.Idx → EReal) (ix2 (row t p) k) := by
  obtain ⟨⟨h0, h1⟩, -⟩ := idx_facts t
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 2048 + 1 * p.val = t.val * 2048 + p.val; rw [h0]; omega
  | ⟨1, _⟩ => show win0_0.index t (1 : Fin 2) * 512 + 1 * k.val = k.val; rw [h1]; omega

/-- The previous state's block at point `t`. -/
theorem h_block (c : Dev nD) (t : Fin cfg0.N) (p : Fin 2048) (k : Fin 256) :
    (iblk m c 1 t : Vec Ideal S2048x256 .f32) (ix2 p k)
      = (m ((c : Thread nD τ).loc main_arg1) : S65536x256.Idx → EReal) (ix2 (row t p) k) := by
  obtain ⟨-, ⟨h0, h1⟩, -⟩ := idx_facts t
  unfold iblk
  rw [View.read_apply]
  show V m c main_arg1 _ = _
  refine (congrFun (V_main_arg1 m c) _).trans (congrArg _ (funext fun a => Fin.ext ?_))
  match a with
  | ⟨0, _⟩ => show win0_1.index t (0 : Fin 2) * 2048 + 1 * p.val = t.val * 2048 + p.val; rw [h0]; omega
  | ⟨1, _⟩ => show win0_1.index t (1 : Fin 2) * 256 + 1 * k.val = k.val; rw [h1]; omega

/-- The score column's block at point `t`. -/
theorem a_block (c : Dev nD) (t : Fin cfg0.N) (p : Fin 2048) :
    (iblk m c 2 t : Vec Ideal S2048x1 .f32) (ix2 p (0 : Fin 1))
      = (m ((c : Thread nD τ).loc main_arg2) : S65536.Idx → EReal) (ix1 (row t p)) := by
  obtain ⟨-, -, ⟨h0, h1⟩, -⟩ := idx_facts t
  unfold iblk
  rw [View.read_apply]
  show V m c main_v15 _ = _
  refine Eq.trans (congrArg (V m c main_v15 : S65536x1.Idx → EReal) (funext fun a => Fin.ext ?_)) (Weights.score_apply m c (row t p))
  match a with
  | ⟨0, _⟩ => show win0_2.index t (0 : Fin 2) * 2048 + 1 * p.val = t.val * 2048 + p.val; rw [h0]; omega
  | ⟨1, _⟩ => show win0_2.index t (1 : Fin 2) * 1 + 1 * 0 = 0; rw [h1]

/-- A weight operand's block is the whole operand: block (0, 0) of an array of one block. -/
theorem w3_block (c : Dev nD) (t : Fin cfg0.N) (k j : Fin 512) :
    (iblk m c 3 t : Vec Ideal S512x512 .bf16) (ix2 k j) = (V m c main_v5 : S512x512.Idx → EReal) (ix2 k j) := by
  obtain ⟨-, -, -, ⟨h0, h1⟩, -⟩ := idx_facts t
  unfold iblk
  rw [View.read_apply]
  show V m c main_v5 _ = _
  refine congrArg (V m c main_v5 : S512x512.Idx → EReal) (funext fun a => Fin.ext ?_)
  match a with
  | ⟨0, _⟩ => show win0_3.index t (0 : Fin 2) * 512 + 1 * k.val = k.val; rw [h0]; omega
  | ⟨1, _⟩ => show win0_3.index t (1 : Fin 2) * 512 + 1 * j.val = j.val; rw [h1]; omega

theorem w4_block (c : Dev nD) (t : Fin cfg0.N) (k : Fin 256) (j : Fin 512) :
    (iblk m c 4 t : Vec Ideal S256x512 .bf16) (ix2 k j) = (V m c main_v7 : S256x512.Idx → EReal) (ix2 k j) := by
  obtain ⟨-, -, -, -, ⟨h0, h1⟩, -⟩ := idx_facts t
  unfold iblk
  rw [View.read_apply]
  show V m c main_v7 _ = _
  refine congrArg (V m c main_v7 : S256x512.Idx → EReal) (funext fun a => Fin.ext ?_)
  match a with
  | ⟨0, _⟩ => show win0_4.index t (0 : Fin 2) * 256 + 1 * k.val = k.val; rw [h0]; omega
  | ⟨1, _⟩ => show win0_4.index t (1 : Fin 2) * 512 + 1 * j.val = j.val; rw [h1]; omega

theorem w5_block (c : Dev nD) (t : Fin cfg0.N) (j : Fin 512) :
    (iblk m c 5 t : Vec Ideal S1x512 .f32) (ix2 (0 : Fin 1) j) = (V m c main_v13 : S1x512.Idx → EReal) (ix2 (0 : Fin 1) j) := by
  obtain ⟨-, -, -, -, -, ⟨h0, h1⟩, -⟩ := idx_facts t
  unfold iblk
  rw [View.read_apply]
  show V m c main_v13 _ = _
  refine congrArg (V m c main_v13 : S1x512.Idx → EReal) (funext fun a => Fin.ext ?_)
  match a with
  | ⟨0, _⟩ => show win0_5.index t (0 : Fin 2) * 1 + 1 * 0 = 0; rw [h0]
  | ⟨1, _⟩ => show win0_5.index t (1 : Fin 2) * 512 + 1 * j.val = j.val; rw [h1]; omega

theorem w6_block (c : Dev nD) (t : Fin cfg0.N) (k q : Fin 256) :
    (iblk m c 6 t : Vec Ideal S256x256 .bf16) (ix2 k q) = (V m c main_v9 : S256x256.Idx → EReal) (ix2 k q) := by
  obtain ⟨-, -, -, -, -, -, ⟨h0, h1⟩, -⟩ := idx_facts t
  unfold iblk
  rw [View.read_apply]
  show V m c main_v9 _ = _
  refine congrArg (V m c main_v9 : S256x256.Idx → EReal) (funext fun a => Fin.ext ?_)
  match a with
  | ⟨0, _⟩ => show win0_6.index t (0 : Fin 2) * 256 + 1 * k.val = k.val; rw [h0]; omega
  | ⟨1, _⟩ => show win0_6.index t (1 : Fin 2) * 256 + 1 * q.val = q.val; rw [h1]; omega

theorem w7_block (c : Dev nD) (t : Fin cfg0.N) (k q : Fin 256) :
    (iblk m c 7 t : Vec Ideal S256x256 .bf16) (ix2 k q) = (V m c main_v11 : S256x256.Idx → EReal) (ix2 k q) := by
  obtain ⟨-, -, -, -, -, -, -, ⟨h0, h1⟩, -⟩ := idx_facts t
  unfold iblk
  rw [View.read_apply]
  show V m c main_v11 _ = _
  refine congrArg (V m c main_v11 : S256x256.Idx → EReal) (funext fun a => Fin.ext ?_)
  match a with
  | ⟨0, _⟩ => show win0_7.index t (0 : Fin 2) * 256 + 1 * k.val = k.val; rw [h0]; omega
  | ⟨1, _⟩ => show win0_7.index t (1 : Fin 2) * 256 + 1 * q.val = q.val; rw [h1]; omega

theorem w8_block (c : Dev nD) (t : Fin cfg0.N) (q : Fin 256) :
    (iblk m c 8 t : Vec Ideal S1x256 .f32) (ix2 (0 : Fin 1) q) = (V m c main_v14 : S1x256.Idx → EReal) (ix2 (0 : Fin 1) q) := by
  obtain ⟨-, -, -, -, -, -, -, -, ⟨h0, h1⟩, -⟩ := idx_facts t
  unfold iblk
  rw [View.read_apply]
  show V m c main_v14 _ = _
  refine congrArg (V m c main_v14 : S1x256.Idx → EReal) (funext fun a => Fin.ext ?_)
  match a with
  | ⟨0, _⟩ => show win0_8.index t (0 : Fin 2) * 1 + 1 * 0 = 0; rw [h0]
  | ⟨1, _⟩ => show win0_8.index t (1 : Fin 2) * 256 + 1 * q.val = q.val; rw [h1]; omega

/-! ## What a point writes back, the cover, the array -/

theorem hz : (![0, 0] : Fin 2 → Nat) = fun _ => 0 := funext fun a => by fin_cases a <;> rfl

/-- WHAT POINT `t` WRITES BACK is block `t` of the batch array of cells. -/
theorem flushed_eq (c : Dev nD) (t : Fin cfg0.N) :
    (dats m 0 c).flushed 9 t = ((cfg0.win 9).blk t).view.read (Elt Ideal) (result m c) := by
  obtain ⟨-, -, -, -, -, -, -, -, -, ⟨h0, h1⟩⟩ := idx_facts t
  rw [Value.flushed9]
  funext y
  obtain ⟨p, q, rfl⟩ : ∃ (p : Fin 2048) (q : Fin 256), y = ix2 p q := ⟨y 0, y 1, eq_ix2 y⟩
  rw [View.read_apply]
  show out0_9 (iblk m c 0 t) (iblk m c 1 t) (iblk m c 2 t) (iblk m c 3 t) (iblk m c 4 t) (iblk m c 5 t) (iblk m c 6 t)
      (iblk m c 7 t) (iblk m c 8 t) (ix2 p q) = _
  unfold out0_9
  refine (Value.canon9_eq _ _ _ _ _ _ _ _ _ (ix2 p q)).trans ?_
  simp only [View.ld_unit_zero (S := S2048x512) hz, View.ld_unit_zero (S := S2048x256) hz, View.ld_unit_zero (S := S2048x1) hz,
    View.ld_unit_zero (S := S512x512) hz, View.ld_unit_zero (S := S256x512) hz, View.ld_unit_zero (S := S1x512) hz,
    View.ld_unit_zero (S := S256x256) hz, View.ld_unit_zero (S := S1x256) hz]
  have e : ((cfg0.win 9).blk t).view.emb (ix2 p q) = ix2 (row t p) q := funext fun a => Fin.ext (by
    match a with
    | ⟨0, _⟩ => show win0_9.index t (0 : Fin 2) * 2048 + 1 * p.val = t.val * 2048 + p.val; rw [h0]; omega
    | ⟨1, _⟩ => show win0_9.index t (1 : Fin 2) * 256 + 1 * q.val = q.val; rw [h1]; omega)
  rw [e]
  refine (Tile.tile_rows _ _ _ _ _ _ _ _ _
    (fun p k => (m ((c : Thread nD τ).loc main_arg0) : S65536x512.Idx → EReal) (ix2 (row t p) k))
    (fun p k => (m ((c : Thread nD τ).loc main_arg1) : S65536x256.Idx → EReal) (ix2 (row t p) k))
    (fun p => (m ((c : Thread nD τ).loc main_arg2) : S65536.Idx → EReal) (ix1 (row t p)))
    (fun j k => (m ((c : Thread nD τ).loc main_arg3) : S256x768.Idx → EReal) (ix2 j k))
    (fun j => (m ((c : Thread nD τ).loc main_arg4) : S256.Idx → EReal) (ix1 j))
    (fun j k => (m ((c : Thread nD τ).loc main_arg5) : S256x768.Idx → EReal) (ix2 j k))
    (fun j => (m ((c : Thread nD τ).loc main_arg6) : S256.Idx → EReal) (ix1 j))
    (fun j k => (m ((c : Thread nD τ).loc main_arg7) : S256x512.Idx → EReal) (ix2 j k))
    (fun j => (m ((c : Thread nD τ).loc main_arg8) : S256.Idx → EReal) (ix1 j))
    (fun p => a_block m c t p) (fun p k => x_block m c t p k) (fun p k => h_block m c t p k)
    (fun k j => (w3_block m c t k j).trans (Weights.wruIn_apply m c k j))
    (fun k j => (w4_block m c t k j).trans (Weights.wruH_apply m c k j))
    (fun j => (w5_block m c t j).trans (Weights.bru_apply m c j))
    (fun k q => (w6_block m c t k q).trans (Weights.whInt_apply m c k q))
    (fun k q => (w7_block m c t k q).trans (Weights.whRh_apply m c k q))
    (fun q => (w8_block m c t q).trans (Weights.bh_apply m c q)) p q).trans ?_
  exact (cellArr_apply _ _ _ _ _ _ _ _ _ (row t p) q).symm

/-- An index of the result is in point `t`'s block iff its row is among the point's 2048 rows. -/
theorem mem_blk (t : Fin cfg0.N) (i : S65536x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v16).slice (win0_9.rect t)).set ↔ _
  rw [View.set_slice_whole, Rect.mem_set_unit]
  exact Iff.rfl

/-- The 32 blocks of rows cover the result: row `r` is in the block of point `r / 2048`. -/
theorem cover (i : S65536x256.Idx) : ∃ t : Fin cfg0.N, (cfg0.win 9).flush t = true ∧ i ∈ ((cfg0.win 9).blk t).view.set := by
  have hi0 : (i 0).val < 65536 := (i 0).isLt
  have hi1 : (i 1).val < 256 := (i 1).isLt
  have hN : cfg0.N = 32 := N_0
  let t : Fin cfg0.N := ⟨(i 0).val / 2048, by rw [hN]; omega⟩
  obtain ⟨-, -, -, -, -, -, -, -, -, ⟨h0, h1⟩⟩ := idx_facts t
  have ht : t.val = (i 0).val / 2048 := rfl
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; rw [h0, ht]; omega
  | ⟨1, _⟩ => show win0_9.index t (1 : Fin 2) * 256 ≤ (i 1).val ∧ (i 1).val < win0_9.index t (1 : Fin 2) * 256 + 256; rw [h1]; omega

/-- THE RESULT ARRAY after the run is the batch array of cells. -/
theorem final (c : Dev nD) : (dats m 0 c).arrAt 9 cfg0.N = result m c :=
  (dats m 0 c).arrAt_eq_of_cover 9 (result m c) (fun t _ => flushed_eq m c t) cover

/-- The kernel program's run, read: the result array at the batch array of cells, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Arr

end
-- ==== Proof.lean ====
/-
  The certificate of the debiased GRU cell kernel against its reference.

  Both idealized programs end with the result array holding, at row `p` and column `q`, the GRU cell of `Proof/Spec.lean`
  applied to row `p` of the inputs: `out = (1 − a·u) · ĥ + (a·u) · h` with the reset and update gates the logistic of an
  affine form of `[x | h]` and the candidate the tanh of an affine form of `[x_{<256} | r ⊙ h]`.
  The kernel program computes it tile by tile (32 tiles of 2048 rows), with each affine form as a sum of two products
  that never joins the two parts of the row, the two gates fused into one product of width 512, and operands passed
  through a narrower float format; on the extended reals the format change is the identity and the split sum is the
  whole sum by commutativity and associativity of addition alone, so no finiteness of the inputs is used
  (`Proof/KernelTile.lean`, `Proof/HostWeights.lean`, `Proof/KernelArray.lean`). The reference computes it in one piece
  (`Proof/RefRows.lean`, `Proof/RefArray.lean`). The ideal pass rewrote nothing, so `preserves` is trivial; the frames
  are the generated ones and, for the reference, its run with the result dropped.
-/
import proofs.«155390_j84052509982761_2_alg».proof.Defs
import proofs.«155390_j84052509982761_2_alg».proof.Proof.Gen.Kernel
import proofs.«155390_j84052509982761_2_alg».proof.Proof.Gen.Kernel.Skeleton
import proofs.«155390_j84052509982761_2_alg».proof.Proof.Gen.Kernel.Launch
import proofs.«155390_j84052509982761_2_alg».proof.Proof.Gen.Kernel.Points
import proofs.«155390_j84052509982761_2_alg».proof.Proof.Gen.Kernel.Frame
import proofs.«155390_j84052509982761_2_alg».proof.Proof.Gen.KernelIdeal
import proofs.«155390_j84052509982761_2_alg».proof.Proof.Gen.KernelIdeal.Skeleton
import proofs.«155390_j84052509982761_2_alg».proof.Proof.Gen.KernelIdeal.Launch
import proofs.«155390_j84052509982761_2_alg».proof.Proof.Gen.KernelIdeal.Points
import proofs.«155390_j84052509982761_2_alg».proof.Proof.Gen.KernelIdeal.Frame
import proofs.«155390_j84052509982761_2_alg».proof.Proof.Gen.KernelIdeal.Value
import proofs.«155390_j84052509982761_2_alg».proof.Proof.Gen.ReferenceIdeal
import proofs.«155390_j84052509982761_2_alg».proof.Proof.Gen.Pre_finite_inputs
import proofs.«155390_j84052509982761_2_alg».proof.Proof.RefRunPatched
import proofs.«155390_j84052509982761_2_alg».proof.Proof.RefArray
import proofs.«155390_j84052509982761_2_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the batch array of cells of their (agreeing) arguments. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5, a6, a7, a8⟩ := hagree c
  rw [a0, a1, a2, a3, a4, a5, a6, a7, a8]
  exact Cert.ReferenceIdeal.RefValue.refOut_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
